-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x400000 : Shape := ⟨2, ![2, 400000]⟩
abbrev S400000 : Shape := ⟨1, ![400000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000 : S_.BroadcastsInDim S400000 (![] : Fin 0 → Fin S400000.rank)
  reducesTo_S400000_S_d0 : S400000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x400000 32) (main_arg2 : FVec F S400000 .f32) (main_arg3 : FVec F S128x128 .f32) (main_arg4 : FVec F S128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x400000 : Shape := ⟨2, ![2, 400000]⟩
abbrev S400000 : Shape := ⟨1, ![400000]⟩
abbrev S128x128 : Shape := ⟨2, ![128, 128]⟩
abbrev S128 : Shape := ⟨1, ![128]⟩
abbrev S5000x128 : Shape := ⟨2, ![5000, 128]⟩
abbrev S100000 : Shape := ⟨1, ![100000]⟩
abbrev S1x400000 : Shape := ⟨2, ![1, 400000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 77
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S400000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S100000x128, .f32⟩
  | .hbm, ⟨8, _⟩ => ⟨S100000, .i32⟩
  | .hbm, ⟨9, _⟩ => ⟨S1x400000, .i32⟩
  | .hbm, ⟨10, _⟩ => ⟨S400000, .i32⟩
  | .hbm, ⟨11, _⟩ => ⟨S500000, .i32⟩
  | .hbm, ⟨12, _⟩ => ⟨S1x400000, .i32⟩
  | .hbm, ⟨13, _⟩ => ⟨S400000, .i32⟩
  | .hbm, ⟨14, _⟩ => ⟨S500000, .i32⟩
  | .hbm, ⟨15, _⟩ => ⟨S_, .f32⟩
  | .hbm, ⟨16, _⟩ => ⟨S100000, .f32⟩
  | .hbm, ⟨17, _⟩ => ⟨S500000, .f32⟩
  | .hbm, ⟨18, _⟩ => ⟨S_, .f32⟩
  | .hbm, ⟨19, _⟩ => ⟨S100000, .f32⟩
  | .hbm, ⟨20, _⟩ => ⟨S500000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S500000, .i32⟩
  | .hbm, ⟨39, _⟩ => ⟨S500000, .i1⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S500000x1, .i32⟩
  | .hbm, ⟨45, _⟩ => ⟨S500000, .f32⟩
  | .hbm, ⟨46, _⟩ => ⟨S500000, .f32⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S500000, .f32⟩
  | .hbm, ⟨56, _⟩ => ⟨S500000, .f32⟩
  | .hbm, ⟨57, _⟩ => ⟨S500000x1, .f32⟩
  | .hbm, ⟨58, _⟩ => ⟨S_, .i32⟩
  | .hbm, ⟨59, _⟩ => ⟨S500000, .i32⟩
  | .hbm, ⟨60, _⟩ => ⟨S500000, .i1⟩
  | .hbm, ⟨61, _⟩ => ⟨S_, .i32⟩
  | .hbm, ⟨62, _⟩ => ⟨S500000, .i32⟩
  | .hbm, ⟨63, _⟩ => ⟨S500000, .i32⟩
  | .hbm, ⟨64, _⟩ => ⟨S500000, .i32⟩
  | .hbm, ⟨65, _⟩ => ⟨S500000x1, .i32⟩
  | .hbm, ⟨66, _⟩ => ⟨S500000x128, .f32⟩
  | .hbm, ⟨67, _⟩ => ⟨S500000x128, .f32⟩
  | .hbm, ⟨68, _⟩ => ⟨S500000x128, .f32⟩
  | .hbm, ⟨69, _⟩ => ⟨S_, .f32⟩
  | .hbm, ⟨70, _⟩ => ⟨S100000x128, .f32⟩
  | .hbm, ⟨71, _⟩ => ⟨S500000x1, .i32⟩
  | .hbm, ⟨72, _⟩ => ⟨S100000x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x400000_S1x400000_0_0 : S2x400000.Slices ![0, 0] S1x400000
  shapeCasts_S1x400000_S400000 : S1x400000.ShapeCasts S400000
  concatenates_S400000_S100000_S500000_d0 : Shape.Concatenates [S400000, S100000] S500000 0
  slices_S2x400000_S1x400000_1_0 : S2x400000.Slices ![1, 0] S1x400000
  bcast_S_S100000 : S_.BroadcastsInDim S100000 (![] : Fin 0 → Fin S100000.rank)
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x400000 : Shape := ⟨2, ![2, 400000]⟩
abbrev S400000 : Shape := ⟨1, ![400000]⟩
abbrev S128x128 : Shape := ⟨2, ![128, 128]⟩
abbrev S128 : Shape := ⟨1, ![128]⟩
abbrev S100000 : Shape := ⟨1, ![100000]⟩
abbrev S1x400000 : Shape := ⟨2, ![1, 400000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩
abbrev S100000x1 : Shape := ⟨2, ![100000, 1]⟩

abbrev nBuf : Space → Nat
  | .hbm => 105
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S400000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S100000x128, .f32⟩
  | .hbm, ⟨8, _⟩ => ⟨S100000, .i32⟩
  | .hbm, ⟨9, _⟩ => ⟨S1x400000, .i32⟩
  | .hbm, ⟨10, _⟩ => ⟨S400000, .i32⟩
  | .hbm, ⟨11, _⟩ => ⟨S500000, .i32⟩
  | .hbm, ⟨12, _⟩ => ⟨S1x400000, .i32⟩
  | .hbm, ⟨13, _⟩ => ⟨S400000, .i32⟩
  | .hbm, ⟨14, _⟩ => ⟨S500000, .i32⟩
  | .hbm, ⟨15, _⟩ => ⟨S_, .f32⟩
  | .hbm, ⟨16, _⟩ => ⟨S100000, .f32⟩
  | .hbm, ⟨17, _⟩ => ⟨S500000, .f32⟩
  | .hbm, ⟨18, _⟩ => ⟨S_, .f32⟩
  | .hbm, ⟨19, _⟩ => ⟨S100000, .f32⟩
  | .hbm, ⟨20, _⟩ => ⟨S500000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S500000, .i32⟩
  | .hbm, ⟨39, _⟩ => ⟨S500000, .i1⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S500000x1, .i32⟩
  | .hbm, ⟨45, _⟩ => ⟨S500000, .f32⟩
  | .hbm, ⟨46, _⟩ => ⟨S500000, .f32⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S500000, .f32⟩
  | .hbm, ⟨56, _⟩ => ⟨S500000, .f32⟩
  | .hbm, ⟨57, _⟩ => ⟨S500000x1, .f32⟩
  | .hbm, ⟨58, _⟩ => ⟨S_, .i32⟩
  | .hbm, ⟨59, _⟩ => ⟨S500000, .i32⟩
  | .hbm, ⟨60, _⟩ => ⟨S500000, .i1⟩
  | .hbm, ⟨61, _⟩ => ⟨S_, .i32⟩
  | .hbm, ⟨62, _⟩ => ⟨S500000, .i32⟩
  | .hbm, ⟨63, _⟩ => ⟨S500000, .i32⟩
  | .hbm, ⟨64, _⟩ => ⟨S500000, .i32⟩
  | .hbm, ⟨65, _⟩ => ⟨S500000x1, .i32⟩
  | .hbm, ⟨66, _⟩ => ⟨S500000x128, .f32⟩
  | .hbm, ⟨67, _⟩ => ⟨S500000x128, .f32⟩
  | .hbm, ⟨68, _⟩ => ⟨S500000x128, .f32⟩
  | .hbm, ⟨69, _⟩ => ⟨S_, .f32⟩
  | .hbm, ⟨70, _⟩ => ⟨S100000x128, .f32⟩
  | .hbm, ⟨71, _⟩ => ⟨S500000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S_, .f32⟩
  | .hbm, ⟨80, _⟩ => ⟨S100000x1, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000, .f32⟩
  | .hbm, ⟨87, _⟩ => ⟨S100000x1, .f32⟩
  | .hbm, ⟨88, _⟩ => ⟨S_, .f32⟩
  | .hbm, ⟨89, _⟩ => ⟨S100000x1, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x1, .f32⟩
  | .hbm, ⟨95, _⟩ => ⟨S100000x1, .f32⟩
  | .hbm, ⟨96, _⟩ => ⟨S100000x1, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S1x128, .f32⟩
  | .hbm, ⟨103, _⟩ => ⟨S100000x128, .f32⟩
  | .hbm, ⟨104, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S100000_S500000_d0 : Shape.Concatenates [S400000, S100000] S500000 0
  slices_S2x400000_S1x400000_1_0 : S2x400000.Slices ![1, 0] S1x400000
  bcast_S_S100000 : S_.BroadcastsInDim S100000 (![] : Fin 0 → Fin S100000.rank)
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

class Facts : Prop extends Facts₀ where

variable [Facts]
-- ==== Proof.KernRun.lean ====
/-
  The idealized kernel's whole run with its result named.

  @main of the kernel is seven segments: the matrix-product region, five stretches of host operations (the
  message-passing gather / scatter arithmetic), and the LayerNorm region. The buffer contents at each boundary are a fold
  from the launch memory (`W0 … W7` of the frame module): a host stretch rewrites the buffers its operations write, a
  region leaves each of its arrays at what its grid points wrote back. Every weakly fair execution from a memory with
  zero counters terminates, without a fault, in a state whose unscoped TensorCore buffers hold the last fold `W7`; read
  at the result buffer that is the statement below, and read at the arguments it is the frame (no segment writes an
  argument).
-/
import proofs.«121085_j13408887898483_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates with the result buffer at the last boundary's contents and the
    arguments as launched: the launch of the seven segments, the final thread state read against the final memory at
    the result buffer and at each argument. -/
theorem run_result : θ_run defs (onTc (τ := τ) (main (F := F))) ⟨m, fun _ => 0, ρ⟩ (fun r => ∀ c : Dev nD,
      r.2.mem ((c.tc : Thread nD τ).loc main_v52) = W7 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v52 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.ValueRun

end
-- ==== Proof.KernMM.lean ====
/-
  What the matrix-product body stores, entry by entry.

  The body loads a block of 5000 rows of 128 features and the whole 128 × 128 weight matrix, rounds both to bf16 (the
  identity on the extended reals) and stores their product accumulated into zero. Entry `(p, q)` of the stored block is
  the sum over `k` of the block's `(p, k)` times the weight's `(k, q)`.
-/
import proofs.«121085_j13408887898483_1_alg».proof.Proof.Gen.KernelIdeal.Skeleton
import Idealize.ShloMosaic.Lib.ValueIdx
import Idealize.ShloMosaic.PureOps.Ideal.Laws

noncomputable section

namespace Cert.KernelIdeal.Payloads

open Cert.KernelIdeal Cert.KernelIdeal.Gen Idealize.ShloMosaic Idealize.ShloMosaic.ValueIdx

/-- The left operand is read in the output's row. -/
theorem mm_lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand is read in the output's column. -/
theorem mm_rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry `(p, q)` of the stored block: row `p` of the loaded block times column `q` of the weights. -/
theorem mm_pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact mm_lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact mm_rhs_col _ _)
  rw [truncf_apply, truncf_apply, el, er]

end Cert.KernelIdeal.Payloads

end
-- ==== Proof.LnRow.lean ====
/-
  One row of a LayerNorm over 128 features, on the extended reals.

  A row `row` of 128 entries is first shifted entry by entry by a bias `b`; its mean is the sum of the shifted
  entries divided by 128, its variance the sum of the squared deviations from that mean divided by 128, and entry `j`
  of the result is the deviation at `j` times the reciprocal square root of (variance + ε), times a gain `g j`,
  plus an offset `be j`. The divisor 128 and ε are kept as the float words both programs spell
  (`0x43000000` is 128, `0x3727C5AC` the float nearest 1e-5): the same word on both sides is never evaluated.
  A row of a matrix product is the sum over the contracted axis of the products of the factors' entries.
-/
import Idealize.ShloMosaic.PureOps.Ideal
import Idealize.ShloMosaic.Lib.ValueIdx

noncomputable section

namespace Cert.LayerNorm

open Idealize.ShloMosaic

/-- Entry `k` of the row after the bias is added. -/
def shifted (row b : Fin 128 → EReal) (k : Fin 128) : EReal := row k + b k

/-- The mean of the shifted row: its sum divided by 128. -/
def mean (row b : Fin 128 → EReal) : EReal :=
  Ideal.div (∑ k : Fin 128, shifted row b k) (Ideal.ofBits .f32 0x43000000#32)

/-- Entry `k`'s deviation from the mean. -/
def centred (row b : Fin 128 → EReal) (k : Fin 128) : EReal := shifted row b k - mean row b

/-- The variance of the shifted row: the sum of the squared deviations divided by 128. -/
def variance (row b : Fin 128 → EReal) : EReal :=
  Ideal.div (∑ k : Fin 128, centred row b k * centred row b k) (Ideal.ofBits .f32 0x43000000#32)

/-- Entry `j` of the normalised row: deviation · (variance + ε)^(-1/2) · gain + offset. -/
def lnRow (row b g be : Fin 128 → EReal) (j : Fin 128) : EReal :=
  centred row b j * Ideal.rsqrt (variance row b + Ideal.ofBits .f32 0x3727C5AC#32) * g j + be j

/-- Entry `j` of a row times a 128 × 128 matrix: the sum over `k` of the row's entry `k` times the matrix's `(k, j)`. -/
def dotRow (x : Fin 128 → EReal) (w : Fin 128 → Fin 128 → EReal) (j : Fin 128) : EReal :=
  ∑ k : Fin 128, x k * w k j

/-! ## The two whole-array functions -/

open Idealize.ShloMosaic.ValueIdx

/-- The product of a `[100000, 128]` array with a `[128, 128]` matrix: entry `(r, j)` is row `r` times column `j`. -/
def matProd (x : (⟨2, ![100000, 128]⟩ : Shape).Idx → EReal) (w : (⟨2, ![128, 128]⟩ : Shape).Idx → EReal) :
    (⟨2, ![100000, 128]⟩ : Shape).Idx → EReal := fun i =>
  dotRow (fun k => x (ix2 (⟨(i 0).val, (i 0).isLt⟩ : Fin 100000) k)) (fun k j => w (ix2 k j)) (⟨(i 1).val, (i 1).isLt⟩ : Fin 128)

/-- The LayerNorm of every row of a `[100000, 128]` array, with bias, gain and offset vectors of 128 entries. -/
def layerNorm (A : (⟨2, ![100000, 128]⟩ : Shape).Idx → EReal) (b g be : (⟨1, ![128]⟩ : Shape).Idx → EReal) :
    (⟨2, ![100000, 128]⟩ : Shape).Idx → EReal := fun i =>
  lnRow (fun k => A (ix2 (⟨(i 0).val, (i 0).isLt⟩ : Fin 100000) k)) (fun k => b (ix1 k)) (fun k => g (ix1 k))
    (fun k => be (ix1 k)) (⟨(i 1).val, (i 1).isLt⟩ : Fin 128)

/-- The same with bias, gain and offset given as rows `[1, 128]` (how the kernel's region is handed them). -/
def layerNormRows (A : (⟨2, ![100000, 128]⟩ : Shape).Idx → EReal) (b g be : (⟨2, ![1, 128]⟩ : Shape).Idx → EReal) :
    (⟨2, ![100000, 128]⟩ : Shape).Idx → EReal := fun i =>
  lnRow (fun k => A (ix2 (⟨(i 0).val, (i 0).isLt⟩ : Fin 100000) k)) (fun k => b (ix2 (0 : Fin 1) k))
    (fun k => g (ix2 (0 : Fin 1) k)) (fun k => be (ix2 (0 : Fin 1) k)) (⟨(i 1).val, (i 1).isLt⟩ : Fin 128)

end Cert.LayerNorm

end
-- ==== Proof.KernBlocks0.lean ====
/-
  The matrix-product region: from blocks to the whole array.

  Grid point `t` (of 20) reads rows `5000·t … 5000·t + 4999` of the `[100000, 128]` operand and the whole weight matrix, and
  writes back the same rows of the result. What it writes is, entry by entry, the product of the operand's row with the
  weight's column; the twenty row blocks tile the result, so after the region the result array is the product of the two
  arrays as the region found them.
-/
import proofs.«121085_j13408887898483_1_alg».proof.Proof.Gen.KernelIdeal.Frame
import proofs.«121085_j13408887898483_1_alg».proof.Proof.KernMM
import proofs.«121085_j13408887898483_1_alg».proof.Proof.LnRow
import Idealize.ShloMosaic.Lib.Pipeline.Value

set_option maxRecDepth 16384

noncomputable section

namespace Cert.KernelIdeal.Blocks

open Cert.KernelIdeal Cert.KernelIdeal.Gen Cert.KernelIdeal.Payloads Cert.LayerNorm
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, however spelt. -/
theorem zeroOff2 : (![0, 0] : Fin 2 → Nat) = fun _ => 0 := funext fun a => by fin_cases a <;> rfl

/-- The index maps over the grid: the operand's and the result's row block is the point's number, every other block
    index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a point's product, stated over plain vectors: if the loaded operand block agrees with the array `x` on the
    row that entry `y` of the block has in the array (`i`), and the loaded weights are `w`, the stored entry is the array
    product at `i`. -/
theorem mm_entry (X0 : Vec Ideal S5000x128 .f32) (X1 : Vec Ideal S128x128 .f32)
    (x : (⟨2, ![100000, 128]⟩ : Shape).Idx → EReal) (w : (⟨2, ![128, 128]⟩ : Shape).Idx → EReal)
    (y : S5000x128.Idx) (i : (⟨2, ![100000, 128]⟩ : Shape).Idx)
    (h0 : ∀ k : Fin 128, X0 (ix2 (⟨(y 0).val, (y 0).isLt⟩ : Fin 5000) k) = x (ix2 (⟨(i 0).val, (i 0).isLt⟩ : Fin 100000) k))
    (h1 : ∀ k j : Fin 128, X1 (ix2 k j) = w (ix2 k j)) (hj : (y 1).val = (i 1).val) :
    k0_pay1 (F := Ideal) X0 X1 y = matProd x w i := by
  have ey : y = ix2 (⟨(y 0).val, (y 0).isLt⟩ : Fin 5000) (⟨(y 1).val, (y 1).isLt⟩ : Fin 128) :=
    funext fun a => Fin.ext (by match a with | ⟨0, _⟩ => rfl | ⟨1, _⟩ => rfl)
  rw [ey, mm_pay_apply]
  unfold matProd dotRow
  refine Finset.sum_congr rfl fun k _ => ?_
  rw [h0 k, h1 k]
  exact congrArg (fun j => x (ix2 (⟨(i 0).val, (i 0).isLt⟩ : Fin 100000) k) * w (ix2 k j)) (Fin.ext hj)

/-- What point `t` writes back is block `t` of the product of the operand and weight arrays as the region finds them. -/
theorem flushed0 (c : Dev nD) (t : Fin cfg0.N) :
    (dat0 V c).flushed 2 t
      = ((cfg0.win 2).blk t).view.read (Elt Ideal) (matProd (V c main_arg0) (V c main_arg3)) := by
  show (cfg0.win 2).cut (grid0.coords t) ((dat0 V c).after 2 t) = _
  rw [after0_2]
  unfold out0_2
  rw [View.canon_unit_zero zeroOff2]
  simp only [View.ld_unit_zero (S := S5000x128) zeroOff2, View.ld_unit_zero (S := S128x128) zeroOff2]
  obtain ⟨e0, e1, e2, e3, e4, e5⟩ := idx_facts0 t
  funext y
  show k0_pay1 (F := Ideal) (iblk0 V c 0 t) (iblk0 V c 1 t) y
    = matProd (V c main_arg0) (V c main_arg3) (((cfg0.win 2).blk t).view.emb y)
  refine mm_entry _ _ _ _ _ _ (fun k => ?_) (fun k j => ?_) ?_
  · show V c main_arg0 (((cfg0.win 0).blk t).view.emb (ix2 (⟨(y 0).val, (y 0).isLt⟩ : Fin 5000) k)) = _
    refine congrArg (V c main_arg0) (funext fun a => Fin.ext ?_)
    match a with
    | ⟨0, _⟩ =>
      show win0_0.index t (0 : Fin 2) * 5000 + 1 * (y 0).val = win0_2.index t (0 : Fin 2) * 5000 + 1 * (y 0).val
      omega
    | ⟨1, _⟩ =>
      show win0_0.index t (1 : Fin 2) * 128 + 1 * k.val = k.val
      omega
  · show V c main_arg3 (((cfg0.win 1).blk t).view.emb (ix2 k j)) = _
    refine congrArg (V c main_arg3) (funext fun a => Fin.ext ?_)
    match a with
    | ⟨0, _⟩ =>
      show win0_1.index t (0 : Fin 2) * 128 + 1 * k.val = k.val
      omega
    | ⟨1, _⟩ =>
      show win0_1.index t (1 : Fin 2) * 128 + 1 * j.val = j.val
      omega
  · show (y 1).val = win0_2.index t (1 : Fin 2) * 128 + 1 * (y 1).val
    omega

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Every index of the result array is in some point's block: row `r` is in block `r / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; omega⟩
  obtain ⟨e0, e1, e2, e3, e4, e5⟩ := idx_facts0 t
  have e4' : win0_2.index t (0 : Fin 2) = (i 0).val / 5000 := e4
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the region the result array is the product of the operand and weight arrays as the region found them. -/
theorem final0 (c : Dev nD) :
    (dat0 V c).arrAt 2 cfg0.N = matProd (V c main_arg0) (V c main_arg3) :=
  (dat0 V c).arrAt_eq_of_cover 2 _ (fun t _ => flushed0 V c t) cover0

end Cert.KernelIdeal.Blocks

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«121085_j13408887898483_1_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.KernLnPay.lean ====
/-
  What the LayerNorm body stores, entry by entry.

  The body loads a block of 5000 rows of 128 features and three rows `[1, 128]` (bias, gain, offset), and stores one
  block. Entry `(p, q)` of the stored block depends on row `p` of the loaded block only: it is `lnRow` of that row,
  the bias row, the gain row and the offset row, at feature `q`. The lane sums are plain sums over the row's 128
  entries; the keepdims casts and broadcasts only move a row's statistic to every feature of the row.

  The body's value is cut into three stages — the shifted block, its deviations from the row means, and the row
  scales — each read at an entry; the stored value is their combination by definition.
-/
import proofs.«121085_j13408887898483_1_alg».proof.Proof.Gen.KernelIdeal.Skeleton
import proofs.«121085_j13408887898483_1_alg».proof.Proof.LnRow
import proofs.«121085_j13408887898483_1_alg».proof.Proof.LibRowSum
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx Cert.LayerNorm

/-- A reciprocal square root taken entry by entry, read at an entry. -/
theorem rsqrt_apply {s : Shape} {φ : FTy} (x : FVec Ideal s φ) (i : s.Idx) : rsqrt x i = Ideal.rsqrt (x i) := rfl

/-- A row's statistic, computed as a lane sum divided by a constant, as a column `[5000, 1]` read at `(p, ·)`: the sum of
    row `p` divided by the constant. -/
theorem rowStat_apply (y : FVec Ideal S5000x128 .f32) (cst : Ideal .f32) (hφ : FKind.Formats .f32)
    (hacc : (0x00000000#32 : BitVec FTy.f32.bits) = FKind.add.neutral .f32 hφ) (p : Fin 5000) (u : Fin 1) :
    divf (shapeCast S5000x1 (multiReduction .add [1] S5000 y 0x00000000#32 reduces_S5000x128_S5000 hφ hacc) shapeCasts_S5000_S5000x1)
        (broadcast S5000x1 cst) (ix2 p u)
      = Ideal.div (∑ k : Fin 128, y (ix2 p k)) cst := by
  rw [divf_apply, Cert.Columns.shapeCast_a_a1_apply, broadcast_apply]
  exact congrArg (Ideal.div · cst) (Cert.RowSum.multiReduction_add_row y _ reduces_S5000x128_S5000 hφ hacc p)

/-- f32 is a format the lane sum is compiled at, -/
theorem fmt32 : FKind.Formats .f32 := .inl rfl

/-- and the zero word is a sum's neutral accumulator. -/
theorem accZero : (0x00000000#32 : BitVec FTy.f32.bits) = FKind.add.neutral .f32 fmt32 := rfl

/-! ## The three stages -/

/-- The loaded block with the bias row added to every row. -/
def shiftV (x0 : Vec Ideal S5000x128 .f32) (x1 : Vec Ideal S1x128 .f32) : FVec Ideal S5000x128 .f32 :=
  addf (shapeCast S5000x128 x0 shapeCasts_S5000x128_S5000x128)
    (broadcastTo S5000x128 (shapeCast S1x128 x1 shapeCasts_S1x128_S1x128) broadcasts_S1x128_S5000x128)

/-- A block minus its row means. -/
def centreV (Y : FVec Ideal S5000x128 .f32) (hφ : FKind.Formats .f32)
    (hacc : (0x00000000#32 : BitVec FTy.f32.bits) = FKind.add.neutral .f32 hφ) : FVec Ideal S5000x128 .f32 :=
  subf Y (broadcastTo S5000x128
    (divf (shapeCast S5000x1 (multiReduction .add [1] S5000 Y 0x00000000#32 reduces_S5000x128_S5000 hφ hacc) shapeCasts_S5000_S5000x1)
      (broadcast S5000x1 (Scalar.ofBits .f32 0x43000000#32)))
    broadcasts_S5000x1_S5000x128)

/-- The row scales of a block of deviations: (mean square + ε)^(-1/2), on every feature of the row. -/
def scaleV (D : FVec Ideal S5000x128 .f32) (hφ : FKind.Formats .f32)
    (hacc : (0x00000000#32 : BitVec FTy.f32.bits) = FKind.add.neutral .f32 hφ) : FVec Ideal S5000x128 .f32 :=
  broadcastTo S5000x128
    (rsqrt (addf
      (divf (shapeCast S5000x1 (multiReduction .add [1] S5000 (mulf D D) 0x00000000#32 reduces_S5000x128_S5000 hφ hacc) shapeCasts_S5000_S5000x1)
        (broadcast S5000x1 (Scalar.ofBits .f32 0x43000000#32)))
      (broadcast S5000x1 (Scalar.ofBits .f32 0x3727C5AC#32))))
    broadcasts_S5000x1_S5000x128

/-- The stored value is the deviations times the scales times the gain row plus the offset row. -/
theorem pay_eq_stages (x0 : Vec Ideal S5000x128 .f32) (x1 x2 x3 : Vec Ideal S1x128 .f32) :
    k1_pay1 (F := Ideal) x0 x1 x2 x3
      = addf (mulf (mulf (centreV (shiftV x0 x1) fmt32 accZero) (scaleV (centreV (shiftV x0 x1) fmt32 accZero) fmt32 accZero))
          (broadcastTo S5000x128 (shapeCast S1x128 x2 shapeCasts_S1x128_S1x128) broadcasts_S1x128_S5000x128))
          (broadcastTo S5000x128 (shapeCast S1x128 x3 shapeCasts_S1x128_S1x128) broadcasts_S1x128_S5000x128) := rfl

theorem shiftV_apply (x0 : Vec Ideal S5000x128 .f32) (x1 : Vec Ideal S1x128 .f32) (p : Fin 5000) (k : Fin 128) :
    shiftV x0 x1 (ix2 p k) = shifted (fun k => x0 (ix2 p k)) (fun k => x1 (ix2 (0 : Fin 1) k)) k := by
  unfold shiftV shifted
  rw [addf_apply, shapeCast_self, shapeCast_self, broadcastTo_1b_ab_apply]

theorem centreV_apply (Y : FVec Ideal S5000x128 .f32) (hφ : FKind.Formats .f32)
    (hacc : (0x00000000#32 : BitVec FTy.f32.bits) = FKind.add.neutral .f32 hφ) (p : Fin 5000) (q : Fin 128) :
    centreV Y hφ hacc (ix2 p q)
      = Y (ix2 p q) - Ideal.div (∑ k : Fin 128, Y (ix2 p k)) (Ideal.ofBits .f32 0x43000000#32) := by
  unfold centreV
  rw [subf_apply, Cert.Columns.broadcastTo_a1_ab_apply, rowStat_apply]
  rfl

theorem scaleV_apply (D : FVec Ideal S5000x128 .f32) (hφ : FKind.Formats .f32)
    (hacc : (0x00000000#32 : BitVec FTy.f32.bits) = FKind.add.neutral .f32 hφ) (p : Fin 5000) (q : Fin 128) :
    scaleV D hφ hacc (ix2 p q)
      = Ideal.rsqrt (Ideal.div (∑ k : Fin 128, D (ix2 p k) * D (ix2 p k)) (Ideal.ofBits .f32 0x43000000#32)
          + Ideal.ofBits .f32 0x3727C5AC#32) := by
  unfold scaleV
  rw [Cert.Columns.broadcastTo_a1_ab_apply, rsqrt_apply, addf_apply, rowStat_apply, broadcast_apply]
  rfl

/-- Entry `(p, q)` of the stored block is the LayerNorm of row `p` of the loaded block at feature `q`. -/
theorem ln_pay_apply (x0 : Vec Ideal S5000x128 .f32) (x1 x2 x3 : Vec Ideal S1x128 .f32) (p : Fin 5000) (q : Fin 128) :
    k1_pay1 (F := Ideal) x0 x1 x2 x3 (ix2 p q)
      = lnRow (fun k => x0 (ix2 p k)) (fun k => x1 (ix2 (0 : Fin 1) k)) (fun k => x2 (ix2 (0 : Fin 1) k))
          (fun k => x3 (ix2 (0 : Fin 1) k)) q := by
  rw [pay_eq_stages, addf_apply, mulf_apply, mulf_apply, scaleV_apply, broadcastTo_1b_ab_apply,
    broadcastTo_1b_ab_apply, shapeCast_self, shapeCast_self]
  simp only [centreV_apply, shiftV_apply]
  rfl

end Cert.KernelIdeal.Payloads

end
-- ==== Proof.KernBlocks1.lean ====
/-
  The LayerNorm region: from blocks to the whole array.

  Grid point `t` (of 20) reads rows `5000·t … 5000·t + 4999` of the aggregated `[100000, 128]` array and the three rows
  `[1, 128]` (bias, gain, offset), and writes back the same rows of the result. What it writes is, entry by entry, the
  LayerNorm of the aggregate's row; the twenty row blocks tile the result, so after the region the result array is the
  row-wise LayerNorm of the aggregate as the region found it.
-/
import proofs.«121085_j13408887898483_1_alg».proof.Proof.Gen.KernelIdeal.Frame
import proofs.«121085_j13408887898483_1_alg».proof.Proof.KernLnPay
import proofs.«121085_j13408887898483_1_alg».proof.Proof.LnRow
import Idealize.ShloMosaic.Lib.Pipeline.Value

set_option maxRecDepth 16384

noncomputable section

namespace Cert.KernelIdeal.Blocks

open Cert.KernelIdeal Cert.KernelIdeal.Gen Cert.KernelIdeal.Payloads Cert.LayerNorm
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, however spelt. -/
theorem zeroOff2' : (![0, 0] : Fin 2 → Nat) = fun _ => 0 := funext fun a => by fin_cases a <;> rfl

/-- The index maps over the grid: the aggregate's and the result's row block is the point's number, every other block
    index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One entry of a point's LayerNorm, stated over plain vectors: if the loaded block agrees with the array `A` on the row
    that entry `y` of the block has in the array (`i`), and the three loaded rows are `b`, `g`, `be`, the stored entry is
    the array's row-wise LayerNorm at `i`. -/
theorem ln_entry (X0 : Vec Ideal S5000x128 .f32) (X1 X2 X3 : Vec Ideal S1x128 .f32)
    (A : (⟨2, ![100000, 128]⟩ : Shape).Idx → EReal) (b g be : (⟨2, ![1, 128]⟩ : Shape).Idx → EReal)
    (y : S5000x128.Idx) (i : (⟨2, ![100000, 128]⟩ : Shape).Idx)
    (h0 : ∀ k : Fin 128, X0 (ix2 (⟨(y 0).val, (y 0).isLt⟩ : Fin 5000) k) = A (ix2 (⟨(i 0).val, (i 0).isLt⟩ : Fin 100000) k))
    (h1 : ∀ k : Fin 128, X1 (ix2 (0 : Fin 1) k) = b (ix2 (0 : Fin 1) k))
    (h2 : ∀ k : Fin 128, X2 (ix2 (0 : Fin 1) k) = g (ix2 (0 : Fin 1) k))
    (h3 : ∀ k : Fin 128, X3 (ix2 (0 : Fin 1) k) = be (ix2 (0 : Fin 1) k)) (hj : (y 1).val = (i 1).val) :
    k1_pay1 (F := Ideal) X0 X1 X2 X3 y = layerNormRows A b g be i := by
  have ey : y = ix2 (⟨(y 0).val, (y 0).isLt⟩ : Fin 5000) (⟨(y 1).val, (y 1).isLt⟩ : Fin 128) :=
    funext fun a => Fin.ext (by match a with | ⟨0, _⟩ => rfl | ⟨1, _⟩ => rfl)
  rw [ey, ln_pay_apply]
  unfold layerNormRows
  rw [show (fun k : Fin 128 => X0 (ix2 (⟨(y 0).val, (y 0).isLt⟩ : Fin 5000) k))
        = fun k : Fin 128 => A (ix2 (⟨(i 0).val, (i 0).isLt⟩ : Fin 100000) k) from funext h0,
    show (fun k : Fin 128 => X1 (ix2 (0 : Fin 1) k)) = fun k : Fin 128 => b (ix2 (0 : Fin 1) k) from funext h1,
    show (fun k : Fin 128 => X2 (ix2 (0 : Fin 1) k)) = fun k : Fin 128 => g (ix2 (0 : Fin 1) k) from funext h2,
    show (fun k : Fin 128 => X3 (ix2 (0 : Fin 1) k)) = fun k : Fin 128 => be (ix2 (0 : Fin 1) k) from funext h3]
  exact congrArg (lnRow _ _ _ _) (Fin.ext hj)

/-- What point `t` writes back is block `t` of the row-wise LayerNorm of the aggregate with the three rows, as the region
    finds them. -/
theorem flushed1 (c : Dev nD) (t : Fin cfg1.N) :
    (dat1 V c).flushed 4 t
      = ((cfg1.win 4).blk t).view.read (Elt Ideal)
          (layerNormRows (V c main_v48) (V c main_v49) (V c main_v50) (V c main_v51)) := by
  show (cfg1.win 4).cut (grid1.coords t) ((dat1 V c).after 4 t) = _
  rw [after1_4]
  unfold out1_4
  rw [View.canon_unit_zero zeroOff2']
  simp only [View.ld_unit_zero (S := S5000x128) zeroOff2', View.ld_unit_zero (S := S1x128) zeroOff2']
  obtain ⟨e0, e1, e2, e3, e4, e5, e6, e7, e8, e9⟩ := idx_facts1 t
  funext y
  show k1_pay1 (F := Ideal) (iblk1 V c 0 t) (iblk1 V c 1 t) (iblk1 V c 2 t) (iblk1 V c 3 t) y
    = layerNormRows (V c main_v48) (V c main_v49) (V c main_v50) (V c main_v51) (((cfg1.win 4).blk t).view.emb y)
  refine ln_entry _ _ _ _ _ _ _ _ _ _ (fun k => ?_) (fun k => ?_) (fun k => ?_) (fun k => ?_) ?_
  · show V c main_v48 (((cfg1.win 0).blk t).view.emb (ix2 (⟨(y 0).val, (y 0).isLt⟩ : Fin 5000) k)) = _
    refine congrArg (V c main_v48) (funext fun a => Fin.ext ?_)
    match a with
    | ⟨0, _⟩ =>
      show win1_0.index t (0 : Fin 2) * 5000 + 1 * (y 0).val = win1_4.index t (0 : Fin 2) * 5000 + 1 * (y 0).val
      omega
    | ⟨1, _⟩ =>
      show win1_0.index t (1 : Fin 2) * 128 + 1 * k.val = k.val
      omega
  · show V c main_v49 (((cfg1.win 1).blk t).view.emb (ix2 (0 : Fin 1) k)) = _
    refine congrArg (V c main_v49) (funext fun a => Fin.ext ?_)
    match a with
    | ⟨0, _⟩ =>
      show win1_1.index t (0 : Fin 2) * 1 + 1 * 0 = 0
      omega
    | ⟨1, _⟩ =>
      show win1_1.index t (1 : Fin 2) * 128 + 1 * k.val = k.val
      omega
  · show V c main_v50 (((cfg1.win 2).blk t).view.emb (ix2 (0 : Fin 1) k)) = _
    refine congrArg (V c main_v50) (funext fun a => Fin.ext ?_)
    match a with
    | ⟨0, _⟩ =>
      show win1_2.index t (0 : Fin 2) * 1 + 1 * 0 = 0
      omega
    | ⟨1, _⟩ =>
      show win1_2.index t (1 : Fin 2) * 128 + 1 * k.val = k.val
      omega
  · show V c main_v51 (((cfg1.win 3).blk t).view.emb (ix2 (0 : Fin 1) k)) = _
    refine congrArg (V c main_v51) (funext fun a => Fin.ext ?_)
    match a with
    | ⟨0, _⟩ =>
      show win1_3.index t (0 : Fin 2) * 1 + 1 * 0 = 0
      omega
    | ⟨1, _⟩ =>
      show win1_3.index t (1 : Fin 2) * 128 + 1 * k.val = k.val
      omega
  · show (y 1).val = win1_4.index t (1 : Fin 2) * 128 + 1 * (y 1).val
    omega

/-- An index of the result array is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v52).slice (win1_4.rect t)).set ↔ _
  rw [View.set_slice_whole, Rect.mem_set_unit]
  exact Iff.rfl

/-- Every index of the result array is in some point's block: row `r` is in block `r / 5000`. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  let t : Fin cfg1.N := ⟨(i 0).val / 5000, by show (i 0).val / 5000 < grid1.N; omega⟩
  obtain ⟨e0, e1, e2, e3, e4, e5, e6, e7, e8, e9⟩ := idx_facts1 t
  have e8' : win1_4.index t (0 : Fin 2) = (i 0).val / 5000 := e8
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- After the region the result array is the row-wise LayerNorm of the aggregate with the three rows, as the region found
    them. -/
theorem final1 (c : Dev nD) :
    (dat1 V c).arrAt 4 cfg1.N = layerNormRows (V c main_v48) (V c main_v49) (V c main_v50) (V c main_v51) :=
  (dat1 V c).arrAt_eq_of_cover 4 _ (fun t _ => flushed1 V c t) cover1

end Cert.KernelIdeal.Blocks

end
-- ==== Proof.KernGlue.lean ====
/-
  The host operations between the two regions: the arguments and the three rows.

  Between the matrix-product region and the LayerNorm region @main runs five stretches of host operations from the
  contents the first region leaves. The first region writes none of the edge list, the edge weights, the bias, the gain
  and the offset, so it leaves them as launched; among the host operations three recast the bias, gain and offset
  vectors to rows `[1, 128]`, and no later operation writes those rows.
-/
import proofs.«121085_j13408887898483_1_alg».proof.Proof.Gen.KernelIdeal.Frame
import Idealize.ShloMosaic.Lib.StableHlo.Run
import Idealize.ShloMosaic.PureOps.Ideal

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first region leaves the arguments it does not stage as launched -/

theorem W1_arg1 (c : Dev nD) : W1 m ρ c (Proc.devRef .tc main_arg1) = m ((c : Thread nD τ).loc main_arg1) :=
  (W1_of_ne m ρ c main_arg1 (by decide)).trans rfl
theorem W1_arg2 (c : Dev nD) : W1 m ρ c (Proc.devRef .tc main_arg2) = m ((c : Thread nD τ).loc main_arg2) :=
  (W1_of_ne m ρ c main_arg2 (by decide)).trans rfl
theorem W1_arg4 (c : Dev nD) : W1 m ρ c (Proc.devRef .tc main_arg4) = m ((c : Thread nD τ).loc main_arg4) :=
  (W1_of_ne m ρ c main_arg4 (by decide)).trans rfl
theorem W1_arg5 (c : Dev nD) : W1 m ρ c (Proc.devRef .tc main_arg5) = m ((c : Thread nD τ).loc main_arg5) :=
  (W1_of_ne m ρ c main_arg5 (by decide)).trans rfl
theorem W1_arg6 (c : Dev nD) : W1 m ρ c (Proc.devRef .tc main_arg6) = m ((c : Thread nD τ).loc main_arg6) :=
  (W1_of_ne m ρ c main_arg6 (by decide)).trans rfl

/-! ## The three rows -/

/-- The bias row handed to the LayerNorm region is the bias vector recast to `[1, 128]`. -/
theorem v49_eq (c : Dev nD) :
    W6 m ρ c (Proc.devRef .tc main_v49) = shapeCast S1x128 (m ((c : Thread nD τ).loc main_arg4)) shapeCasts_S128_S1x128 := by
  rw [← W1_arg4 m ρ c]
  show StableHlo.after hostOps1_4 (StableHlo.after hostOps1_3 (StableHlo.after hostOps1_2 (StableHlo.after hostOps1_1 (StableHlo.after hostOps1 (W1 m ρ c))))) (Proc.devRef .tc main_v49) = _
  generalize W1 m ρ c = U
  simp only [hostOps1, hostOps1_1, hostOps1_2, hostOps1_3, hostOps1_4]
  after_results_simp
  rfl

/-- The gain row handed to the LayerNorm region is the gain vector recast to `[1, 128]`. -/
theorem v50_eq (c : Dev nD) :
    W6 m ρ c (Proc.devRef .tc main_v50) = shapeCast S1x128 (m ((c : Thread nD τ).loc main_arg5)) shapeCasts_S128_S1x128 := by
  rw [← W1_arg5 m ρ c]
  show StableHlo.after hostOps1_4 (StableHlo.after hostOps1_3 (StableHlo.after hostOps1_2 (StableHlo.after hostOps1_1 (StableHlo.after hostOps1 (W1 m ρ c))))) (Proc.devRef .tc main_v50) = _
  generalize W1 m ρ c = U
  simp only [hostOps1, hostOps1_1, hostOps1_2, hostOps1_3, hostOps1_4]
  after_results_simp
  rfl

/-- The offset row handed to the LayerNorm region is the offset vector recast to `[1, 128]`. -/
theorem v51_eq (c : Dev nD) :
    W6 m ρ c (Proc.devRef .tc main_v51) = shapeCast S1x128 (m ((c : Thread nD τ).loc main_arg6)) shapeCasts_S128_S1x128 := by
  rw [← W1_arg6 m ρ c]
  show StableHlo.after hostOps1_4 (StableHlo.after hostOps1_3 (StableHlo.after hostOps1_2 (StableHlo.after hostOps1_1 (StableHlo.after hostOps1 (W1 m ρ c))))) (Proc.devRef .tc main_v51) = _
  generalize W1 m ρ c = U
  simp only [hostOps1, hostOps1_1, hostOps1_2, hostOps1_3, hostOps1_4]
  after_results_simp
  rfl

end Cert.KernelIdeal.Glue

end
-- ==== Proof.RefLn.lean ====
/-
  The reference's result, entry by entry, as a LayerNorm of the aggregated rows.

  After the scatter-add that aggregates the messages (`val_main_v48`, an array `[100000, 128]`), the reference adds the
  bias to every row, takes each row's mean and variance by host sums over the 128 features divided by 128, and scales,
  shifts: entry `(r, j)` of the result is `lnRow` of row `r` of the aggregate, the bias, the gain and the offset, at
  feature `j`. The keepdims broadcasts only move a row's statistic to every feature of the row.
-/
import proofs.«121085_j13408887898483_1_alg».proof.Proof.Gen.ReferenceIdeal.Read
import proofs.«121085_j13408887898483_1_alg».proof.Proof.LnRow

noncomputable section

namespace Cert.ReferenceIdeal.RefValue

open Cert.ReferenceIdeal Cert.ReferenceIdeal.Read Idealize.ShloMosaic Idealize.ShloMosaic.ValueIdx Cert.LayerNorm

/-! ## Where each layout operation reads its operand, in coordinates -/

theorem col_v56 (r : Fin 100000) (j : Fin 128) : idx_main_v56 (ix2 r j) = ix2 r (0 : Fin 1) :=
  funext fun a => Fin.ext (by match a with | ⟨0, _⟩ => rfl | ⟨1, _⟩ => rfl)
theorem col_v63 (r : Fin 100000) (j : Fin 128) : idx_main_v63 (ix2 r j) = ix2 r (0 : Fin 1) :=
  funext fun a => Fin.ext (by match a with | ⟨0, _⟩ => rfl | ⟨1, _⟩ => rfl)
theorem col_v68 (r : Fin 100000) (j : Fin 128) : idx_main_v68 (ix2 r j) = ix2 r (0 : Fin 1) :=
  funext fun a => Fin.ext (by match a with | ⟨0, _⟩ => rfl | ⟨1, _⟩ => rfl)
theorem vec_v53 (r : Fin 100000) (u : Fin 1) : idx_main_v53 (ix2 r u) = ix1 r :=
  funext fun a => Fin.ext (by match a with | ⟨0, _⟩ => rfl)
theorem vec_v60 (r : Fin 100000) (u : Fin 1) : idx_main_v60 (ix2 r u) = ix1 r :=
  funext fun a => Fin.ext (by match a with | ⟨0, _⟩ => rfl)
theorem row_v52 (r : Fin 100000) (k : Fin 128) : idx_main_v52 (ix1 r) k = ix2 r k :=
  funext fun a => Fin.ext (by match a with | ⟨0, _⟩ => rfl | ⟨1, _⟩ => rfl)
theorem row_v59 (r : Fin 100000) (k : Fin 128) : idx_main_v59 (ix1 r) k = ix2 r k :=
  funext fun a => Fin.ext (by match a with | ⟨0, _⟩ => rfl | ⟨1, _⟩ => rfl)
theorem feat_v50 (r : Fin 100000) (j : Fin 128) : idx_main_v50 (ix2 r j) = ix2 (0 : Fin 1) j :=
  funext fun a => Fin.ext (by match a with | ⟨0, _⟩ => rfl | ⟨1, _⟩ => rfl)
theorem feat_v71 (r : Fin 100000) (j : Fin 128) : idx_main_v71 (ix2 r j) = ix2 (0 : Fin 1) j :=
  funext fun a => Fin.ext (by match a with | ⟨0, _⟩ => rfl | ⟨1, _⟩ => rfl)
theorem feat_v74 (r : Fin 100000) (j : Fin 128) : idx_main_v74 (ix2 r j) = ix2 (0 : Fin 1) j :=
  funext fun a => Fin.ext (by match a with | ⟨0, _⟩ => rfl | ⟨1, _⟩ => rfl)
theorem lane_v49 (u : Fin 1) (j : Fin 128) : idx_main_v49 (ix2 u j) = ix1 j :=
  funext fun a => Fin.ext (by match a with | ⟨0, _⟩ => rfl)
theorem lane_v70 (u : Fin 1) (j : Fin 128) : idx_main_v70 (ix2 u j) = ix1 j :=
  funext fun a => Fin.ext (by match a with | ⟨0, _⟩ => rfl)
theorem lane_v73 (u : Fin 1) (j : Fin 128) : idx_main_v73 (ix2 u j) = ix1 j :=
  funext fun a => Fin.ext (by match a with | ⟨0, _⟩ => rfl)

/-! ## The result at `(r, j)` -/

/-- Entry `(r, j)` of the reference's result is the LayerNorm of row `r` of the aggregated messages at feature `j`. -/
theorem ln_apply (x0 : (⟨S100000x128, .f32⟩ : BufTy).Contents (Elt Ideal)) (x1 : (⟨S2x400000, .i32⟩ : BufTy).Contents (Elt Ideal))
    (x2 : (⟨S400000, .f32⟩ : BufTy).Contents (Elt Ideal)) (x3 : (⟨S128x128, .f32⟩ : BufTy).Contents (Elt Ideal))
    (x4 x5 x6 : (⟨S128, .f32⟩ : BufTy).Contents (Elt Ideal)) (r : Fin 100000) (j : Fin 128) :
    val_main_v75 (F := Ideal) x0 x1 x2 x3 x4 x5 x6 (ix2 r j)
      = lnRow (fun k => val_main_v48 (F := Ideal) x0 x1 x2 x3 (ix2 r k)) (fun k => x4 (ix1 k)) (fun k => x5 (ix1 k))
          (fun k => x6 (ix1 k)) j := by
  simp only [val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_cst_11_apply, val_main_cst_12_apply, val_main_cst_13_apply, val_main_cst_14_apply, val_main_cst_15_apply,
    col_v56, col_v63, col_v68, vec_v53, vec_v60, row_v52, row_v59, feat_v50, feat_v71, feat_v74, lane_v49, lane_v70, lane_v73,
    Ideal.addf_def, Ideal.subf_def, Ideal.mulf_def, Ideal.hostDivf_def, Ideal.hostUnary_rsqrt_def, Ideal.ofBits_def,
    Ideal.ofBits_zero_f32, zero_add, lnRow, centred, variance, mean, shifted]

end Cert.ReferenceIdeal.RefValue

end
-- ==== Proof.RefGlue.lean ====
/-
  The reference's result as one function of its arguments.

  Both programs pass the transformed features `x · W` through the same message passing: gather a source row per edge
  (and per added self loop), scale it by the symmetric normalisation computed from the edge weights and the
  destinations' weighted degrees, and scatter-add the scaled rows into their destinations. Only the gathered array
  depends on `x · W`; the rest is a function of the edge list and the edge weights. `aggregate` names that whole
  passage as one function of the transformed features, never opened: the reference's aggregate is `aggregate` of its
  host product, and its result is the row-wise LayerNorm of that with the bias, gain and offset vectors.
-/
import proofs.«121085_j13408887898483_1_alg».proof.Proof.Gen.ReferenceIdeal.Read
import proofs.«121085_j13408887898483_1_alg».proof.Proof.RefLn
import proofs.«121085_j13408887898483_1_alg».proof.Proof.LnRow

noncomputable section

namespace Cert.ReferenceIdeal.RefValue

open Cert.ReferenceIdeal Cert.ReferenceIdeal.Read Idealize.ShloMosaic Idealize.ShloMosaic.ValueIdx Cert.LayerNorm

variable {F : FTy → Type} [FloatOps F]

/-- The message passing as a function of the transformed features `xw`, the edge list `x1` and the edge weights `x2`:
    scatter-add, into the destinations, of the normalisation weights times the gathered source rows. -/
def aggregate (xw : (⟨S100000x128, .f32⟩ : BufTy).Contents (Elt F)) (x1 : (⟨S2x400000, .i32⟩ : BufTy).Contents (Elt F))
    (x2 : (⟨S400000, .f32⟩ : BufTy).Contents (Elt F)) : (⟨S100000x128, .f32⟩ : BufTy).Contents (Elt F) :=
  Host.scatterAdd scatter_S100000x128_S500000x1_S500000x128_1_0_0_1 (val_main_v46 (F := F)) (val_main_v47 (F := F) x1)
    (mulf (val_main_v44 (F := F) x1 x2)
      (Host.gather gather_S100000x128_S500000x1_S500000x128_1_0_n_n_0_1_1128 xw (val_main_v42 (F := F) x1)))

/-- The reference's aggregate is `aggregate` of its host product. -/
theorem v48_eq (x0 : (⟨S100000x128, .f32⟩ : BufTy).Contents (Elt F)) (x1 : (⟨S2x400000, .i32⟩ : BufTy).Contents (Elt F))
    (x2 : (⟨S400000, .f32⟩ : BufTy).Contents (Elt F)) (x3 : (⟨S128x128, .f32⟩ : BufTy).Contents (Elt F)) :
    val_main_v48 (F := F) x0 x1 x2 x3 = aggregate (val_main_v0 (F := F) x0 x3) x1 x2 := rfl

/-- The reference's host product, at the extended reals, is the product of the two arrays. -/
theorem v0_eq (x0 : (⟨S100000x128, .f32⟩ : BufTy).Contents (Elt Ideal)) (x3 : (⟨S128x128, .f32⟩ : BufTy).Contents (Elt Ideal)) :
    val_main_v0 (F := Ideal) x0 x3 = matProd x0 x3 := by
  funext i
  rw [val_main_v0_apply]
  unfold matProd dotRow
  refine Finset.sum_congr rfl fun k _ => ?_
  congr 2 <;> exact funext fun a => Fin.ext (by match a with | ⟨0, _⟩ => rfl | ⟨1, _⟩ => rfl)

/-- The reference's result is the row-wise LayerNorm of the aggregated product. -/
theorem result_eq (x0 : (⟨S100000x128, .f32⟩ : BufTy).Contents (Elt Ideal)) (x1 : (⟨S2x400000, .i32⟩ : BufTy).Contents (Elt Ideal))
    (x2 : (⟨S400000, .f32⟩ : BufTy).Contents (Elt Ideal)) (x3 : (⟨S128x128, .f32⟩ : BufTy).Contents (Elt Ideal))
    (x4 x5 x6 : (⟨S128, .f32⟩ : BufTy).Contents (Elt Ideal)) :
    val_main_v75 (F := Ideal) x0 x1 x2 x3 x4 x5 x6
      = layerNorm (aggregate (F := Ideal) (matProd x0 x3) x1 x2) x4 x5 x6 := by
  funext i
  have ei : i = ix2 (⟨(i 0).val, (i 0).isLt⟩ : Fin 100000) (⟨(i 1).val, (i 1).isLt⟩ : Fin 128) :=
    funext fun a => Fin.ext (by match a with | ⟨0, _⟩ => rfl | ⟨1, _⟩ => rfl)
  rw [← v0_eq, ← v48_eq]
  conv_lhs => rw [ei]
  rw [ln_apply]
  rfl

end Cert.ReferenceIdeal.RefValue

end
-- ==== Proof.KernAgg.lean ====
/-
  The host operations between the two regions: the aggregated messages.

  From the product array the first region leaves, the edge list and the edge weights, the host stretches compute the
  array handed to the LayerNorm region. They are the same operations, in the same order, as the reference's message
  passing: `aggregate` of the product array. Each operation's result is read at its own buffer as its function of its
  operands' buffers; the two helper calls of `where` only carry their operands through buffers of the same type, and the
  joined index and weight vectors are read as functions of their two parts before the whole is compared.
-/
import proofs.«121085_j13408887898483_1_alg».proof.Proof.Gen.KernelIdeal.Frame
import proofs.«121085_j13408887898483_1_alg».proof.Proof.RefGlue
import proofs.«121085_j13408887898483_1_alg».proof.Proof.KernGlue
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo
open Cert.ReferenceIdeal.RefValue (aggregate)

variable (m : (ℓ : Loc nD τ sig) → Buf (Elt Ideal) ℓ) (ρ : Dev nD → PrngReg)

/-- The edge entries followed by the self-loop entries: two vectors joined along their one axis. -/
def joined {α : Type} (a : S400000.Idx → α) (b : S100000.Idx → α) : S500000.Idx → α :=
  concatenate S500000 0 [⟨S400000, a⟩, ⟨S100000, b⟩] concatenates_S400000_S100000_S500000_d0

theorem joined_def {α : Type} (a : S400000.Idx → α) (b : S100000.Idx → α) :
    joined a b = concatenate S500000 0 [⟨S400000, a⟩, ⟨S100000, b⟩] concatenates_S400000_S100000_S500000_d0 := rfl

set_option maxHeartbeats 4000000 in
/-- The array handed to the LayerNorm region is the aggregate of the product array the first region left. -/
theorem agg_eq (c : Dev nD) :
    W6 m ρ c (Proc.devRef .tc main_v48)
      = aggregate (F := Ideal) (W1 m ρ c (Proc.devRef .tc main_v0)) (m ((c : Thread nD τ).loc main_arg1))
          (m ((c : Thread nD τ).loc main_arg2)) := by
  rw [← W1_arg1 m ρ c, ← W1_arg2 m ρ c]
  show StableHlo.after hostOps1_4 (StableHlo.after hostOps1_3 (StableHlo.after hostOps1_2 (StableHlo.after hostOps1_1 (StableHlo.after hostOps1 (W1 m ρ c))))) (Proc.devRef .tc main_v48) = _
  generalize W1 m ρ c = U
  simp only [hostOps1, hostOps1_1, hostOps1_2, hostOps1_3, hostOps1_4]
  after_results_simp
  simp only [← joined_def]
  after_results_simp
  simp only [TRef.toBuf, TRef.ofBuf, cast_eq, id, joined_def]
  rfl

end Cert.KernelIdeal.Glue

end
-- ==== Proof.KernValue.lean ====
/-
  The idealized kernel's result as one function of its arguments.

  The last boundary's contents at the result buffer are what the LayerNorm region leaves in its output array: the
  row-wise LayerNorm of the array it was handed, with the three rows it was handed. That array is the aggregate of what
  the matrix-product region left, which is the product of the first and fourth arguments; the three rows are the fifth,
  sixth and seventh arguments recast to `[1, 128]`, and a recast vector read at `(0, k)` is the vector at `k`.
-/
import proofs.«121085_j13408887898483_1_alg».proof.Proof.KernRun
import proofs.«121085_j13408887898483_1_alg».proof.Proof.KernBlocks0
import proofs.«121085_j13408887898483_1_alg».proof.Proof.KernBlocks1
import proofs.«121085_j13408887898483_1_alg».proof.Proof.KernGlue
import proofs.«121085_j13408887898483_1_alg».proof.Proof.KernAgg
import Idealize.ShloMosaic.Lib.ValueLayout

set_option maxRecDepth 16384

noncomputable section

namespace Cert.KernelIdeal.ValueRun

open Cert.KernelIdeal Cert.KernelIdeal.Gen Cert.KernelIdeal.Blocks Cert.KernelIdeal.Glue Cert.LayerNorm
open Idealize.ShloMosaic Idealize.ShloMosaic.TcCoe Idealize.SL.Sem Idealize.ShloMosaic.ValueIdx
open Cert.ReferenceIdeal.RefValue (aggregate)

variable (m : (ℓ : Loc nD τ sig) → Buf (Elt Ideal) ℓ) (ρ : Dev nD → PrngReg)

/-- The function both programs compute: LayerNorm of the aggregated product. -/
def resultOf (x0 : (⟨2, ![100000, 128]⟩ : Shape).Idx → EReal) (x1 : (⟨2, ![2, 400000]⟩ : Shape).Idx → BitVec 32)
    (x2 : (⟨1, ![400000]⟩ : Shape).Idx → EReal) (x3 : (⟨2, ![128, 128]⟩ : Shape).Idx → EReal)
    (x4 x5 x6 : (⟨1, ![128]⟩ : Shape).Idx → EReal) : (⟨2, ![100000, 128]⟩ : Shape).Idx → EReal :=
  layerNorm (aggregate (F := Ideal) (matProd x0 x3) x1 x2) x4 x5 x6

/-- The product array the first region leaves. -/
theorem product_eq (c : Dev nD) :
    W1 m ρ c (Proc.devRef .tc main_v0)
      = matProd (m ((c : Thread nD τ).loc main_arg0)) (m ((c : Thread nD τ).loc main_arg3)) :=
  (W1_arr m ρ c 2).trans (final0 (V0 m ρ) c)

/-- Rows recast from vectors: the LayerNorm with the recast rows is the LayerNorm with the vectors. -/
theorem rows_of_vectors (A : (⟨2, ![100000, 128]⟩ : Shape).Idx → EReal) (b g be : (⟨1, ![128]⟩ : Shape).Idx → EReal)
    (h : (⟨1, ![128]⟩ : Shape).ShapeCasts ⟨2, ![1, 128]⟩) :
    layerNormRows A (shapeCast ⟨2, ![1, 128]⟩ b h) (shapeCast ⟨2, ![1, 128]⟩ g h) (shapeCast ⟨2, ![1, 128]⟩ be h)
      = layerNorm A b g be := by
  funext i
  unfold layerNormRows layerNorm
  simp only [shapeCast_a_1a_apply]

/-- The last boundary's contents at the result buffer. -/
theorem result_eq (c : Dev nD) :
    W7 m ρ c (Proc.devRef .tc main_v52)
      = resultOf (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (W7_arr m ρ c 4).trans ?_
  rw [final1 (V6 m ρ) c]
  show layerNormRows (W6 m ρ c (Proc.devRef .tc main_v48)) (W6 m ρ c (Proc.devRef .tc main_v49))
    (W6 m ρ c (Proc.devRef .tc main_v50)) (W6 m ρ c (Proc.devRef .tc main_v51)) = _
  rw [agg_eq, v49_eq, v50_eq, v51_eq, product_eq]
  exact rows_of_vectors _ _ _ _ _

/-- Every weakly fair execution of the idealized kernel terminates with its result at `resultOf` of the arguments and
    the arguments as launched. -/
theorem run : θ_run defs (onTc (τ := τ) (main (F := Ideal))) ⟨m, fun _ => 0, ρ⟩ (fun r => ∀ c : Dev nD,
      r.2.mem ((c.tc : Thread nD τ).loc main_v52)
        = resultOf (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_result m ρ)

end Cert.KernelIdeal.ValueRun

end
-- ==== Proof.lean ====
/-
  The kernel computes a graph-convolution layer: the node features `x` times the weight matrix `W` (a Pallas matrix
  product over twenty blocks of 5000 rows), the edge-weighted, symmetrically normalised aggregation of those rows along
  the edges and the added self loops (host gathers and scatter-adds), and a LayerNorm over the 128 features of every
  aggregated row with bias, gain and offset (a second Pallas kernel over the same twenty row blocks). The reference
  computes the same with a host matrix product and a host LayerNorm.

  On the extended reals both are ONE function of the arguments (`resultOf`): the rounding to bf16 on the way into the
  kernel's matrix product is the identity, a matrix product accumulated into zero is the plain sum of products that the
  host's product is, the aggregation is the same operations on both sides applied to equal arrays, a lane sum and a host
  sum of a row are the same finite sum, and the kernel's division, reciprocal square root and constants are the host's.
  No step uses finiteness of the inputs: the two sides are the same operations in the same arrangement, so the
  precondition is never opened. The idealization rewrote nothing, so `preserves` holds trivially.
-/
import proofs.«121085_j13408887898483_1_alg».proof.Defs
import proofs.«121085_j13408887898483_1_alg».proof.Proof.Gen.Kernel
import proofs.«121085_j13408887898483_1_alg».proof.Proof.Gen.Kernel.Skeleton
import proofs.«121085_j13408887898483_1_alg».proof.Proof.Gen.Kernel.Launch
import proofs.«121085_j13408887898483_1_alg».proof.Proof.Gen.Kernel.Points
import proofs.«121085_j13408887898483_1_alg».proof.Proof.Gen.Kernel.Frame
import proofs.«121085_j13408887898483_1_alg».proof.Proof.Gen.KernelIdeal
import proofs.«121085_j13408887898483_1_alg».proof.Proof.Gen.KernelIdeal.Skeleton
import proofs.«121085_j13408887898483_1_alg».proof.Proof.Gen.KernelIdeal.Launch
import proofs.«121085_j13408887898483_1_alg».proof.Proof.Gen.KernelIdeal.Points
import proofs.«121085_j13408887898483_1_alg».proof.Proof.Gen.KernelIdeal.Frame
import proofs.«121085_j13408887898483_1_alg».proof.Proof.Gen.ReferenceIdeal
import proofs.«121085_j13408887898483_1_alg».proof.Proof.Gen.Pre_finite_inputs
import proofs.«121085_j13408887898483_1_alg».proof.Proof.Gen.ReferenceIdeal.Run
import proofs.«121085_j13408887898483_1_alg».proof.Proof.Gen.ReferenceIdeal.Read
import proofs.«121085_j13408887898483_1_alg».proof.Proof.KernValue
import proofs.«121085_j13408887898483_1_alg».proof.Proof.RefGlue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the LayerNorm of the aggregated product
    of those arguments: the kernel by its run read through the two regions and the host stretches between them, the
    reference by its run read one operation at a time. -/
theorem algebraic : Cert.algebraic_KernelIdeal_ReferenceIdeal := by
  intro m ρ m' ρ' _ hagree
  refine ⟨fun c => Cert.KernelIdeal.ValueRun.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v75_eq, Cert.ReferenceIdeal.RefValue.result_eq, h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
